-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S256x1024 : Shape := ⟨2, ![256, 1024]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x4096.size a
  hwx0_1 : ∀ i : grid0.Coords, EltTy.bits .f32 = 32 ∨ (Rect.block (s := S4096x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KernelBody.lean ====
/-
  The kernel body's arithmetic, read entry by entry on the extended reals.

  One grid step holds a 2048×256 block of x, a 256×1024 block of W and the 2048×1024 output tile. The body zeroes the
  tile at the first K-step, adds the block product x_blk · W_blk to it at every K-step (the narrowing of the two
  operands to bf16 is the identity on exact values), and at the last K-step replaces the tile by tanh(tile + bias row).
  Entry (p, q) of a block product is the sum over the 256 shared places l of x_blk(p, l) · W_blk(l, q).
-/
import proofs.«163435_j24378234372712_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The left operand's index at output entry `j` and shared place `k`: row of `j`, column `k`. -/
theorem lhs_row (j : S2048x1024.Idx) (k : dot_S2048x256_S256x1024_S2048x1024_1_0_0_1_n_n.contr.Idx) :
    (dot_S2048x256_S256x1024_S2048x1024_1_0_0_1_n_n.lhsIdx j k 0).val = (j 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl

theorem lhs_col (j : S2048x1024.Idx) (k : dot_S2048x256_S256x1024_S2048x1024_1_0_0_1_n_n.contr.Idx) :
    (dot_S2048x256_S256x1024_S2048x1024_1_0_0_1_n_n.lhsIdx j k 1).val = (k ⟨0, by decide⟩).val :=
  dot_S2048x256_S256x1024_S2048x1024_1_0_0_1_n_n.lhsIdx_val_of_single rfl j k

/-- The right operand's index: row `k`, column of `j`. -/
theorem rhs_row (j : S2048x1024.Idx) (k : dot_S2048x256_S256x1024_S2048x1024_1_0_0_1_n_n.contr.Idx) :
    (dot_S2048x256_S256x1024_S2048x1024_1_0_0_1_n_n.rhsIdx j k 0).val = (k ⟨0, by decide⟩).val :=
  dot_S2048x256_S256x1024_S2048x1024_1_0_0_1_n_n.rhsIdx_val_of_single rfl j k

theorem rhs_col (j : S2048x1024.Idx) (k : dot_S2048x256_S256x1024_S2048x1024_1_0_0_1_n_n.contr.Idx) :
    (dot_S2048x256_S256x1024_S2048x1024_1_0_0_1_n_n.rhsIdx j k 1).val = (j 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- THE BLOCK PRODUCT at entry (p, q): the sum over the 256 shared places. -/
theorem blockDot_apply {φ₁ φ₂ : FTy} (a : FVec Ideal S2048x256 φ₁) (b : FVec Ideal S256x1024 φ₂) (p : Fin 2048) (q : Fin 1024) :
    matmul dot_S2048x256_S256x1024_S2048x1024_1_0_0_1_n_n none a b (constant (F := Ideal) S2048x1024 .f32 0x00000000#32) (ix2 p q)
      = ∑ l : Fin 256, a (ix2 p l) * b (ix2 l q) := by
  show FloatOps.matmul _ none a b _ (ix2 p q) = _
  rw [Ideal.matmul_constant_zero_apply,
    ← Equiv.sum_comp (contrEquiv1 dot_S2048x256_S256x1024_S2048x1024_1_0_0_1_n_n 256 rfl rfl).symm]
  refine Finset.sum_congr rfl fun l _ => ?_
  have hl := contrEquiv1_symm_val dot_S2048x256_S256x1024_S2048x1024_1_0_0_1_n_n 256 rfl rfl l
  have el : dot_S2048x256_S256x1024_S2048x1024_1_0_0_1_n_n.lhsIdx (ix2 p q)
      ((contrEquiv1 dot_S2048x256_S256x1024_S2048x1024_1_0_0_1_n_n 256 rfl rfl).symm l) = ix2 p l :=
    funext fun ax => Fin.ext (by
      match ax with
      | ⟨0, _⟩ => exact lhs_row _ _
      | ⟨1, _⟩ => exact (lhs_col _ _).trans hl)
  have er : dot_S2048x256_S256x1024_S2048x1024_1_0_0_1_n_n.rhsIdx (ix2 p q)
      ((contrEquiv1 dot_S2048x256_S256x1024_S2048x1024_1_0_0_1_n_n 256 rfl rfl).symm l) = ix2 l q :=
    funext fun ax => Fin.ext (by
      match ax with
      | ⟨0, _⟩ => exact (rhs_row _ _).trans hl
      | ⟨1, _⟩ => exact rhs_col _ _)
  rw [el, er]

/-- The tile as zeroed at the first K-step. -/
theorem zeroed_apply (y : S2048x1024.Idx) : k0_pay1 (F := Ideal) y = 0 := by
  show Ideal.ofBits .f32 0x00000000#32 = 0
  exact Ideal.ofBits_zero_f32

/-- ONE K-STEP: the tile's entry grows by the block product's entry. -/
theorem accumulate_apply (x0 : Vec Ideal S2048x256 .f32) (x1 : Vec Ideal S256x1024 .f32) (acc : Vec Ideal S2048x1024 .f32)
    (p : Fin 2048) (q : Fin 1024) :
    k0_pay2 x0 x1 acc (ix2 p q) = acc (ix2 p q) + ∑ l : Fin 256, x0 (ix2 p l) * x1 (ix2 l q) := by
  unfold k0_pay2
  rw [shapeCast_self, addf_apply, blockDot_apply]
  rfl

/-- THE LAST K-STEP'S CLOSE: tanh of the tile's entry plus the bias row's entry in the same column. -/
theorem finish_apply (acc : Vec Ideal S2048x1024 .f32) (b : Vec Ideal S1x1024 .f32) (p : Fin 2048) (q : Fin 1024) :
    k0_pay3 acc b (ix2 p q) = Ideal.tanh (acc (ix2 p q) + b (ix2 (0 : Fin 1) q)) := by
  unfold k0_pay3
  rw [shapeCast_self, shapeCast_self]
  show Ideal.tanh (acc (ix2 p q) + broadcastTo S2048x1024 b broadcasts_S1x1024_S2048x1024 (ix2 p q)) = _
  rw [broadcastTo_apply b broadcasts_S1x1024_S2048x1024 (ix2 p q) (ix2 (0 : Fin 1) q) (fun a => by
    match a with
    | ⟨0, _⟩ => rfl
    | ⟨1, _⟩ => rfl)]

end Cert.KernelIdeal.Body

end
-- ==== Proof.LibBlockSum.lean ====
/-
  GENERAL LEMMAS (Mathlib only; no program is imported).

  A sum over the first `n * b` naturals taken block by block: the index is `b * s + k` with `s < n` the block and
  `k < b` the place inside it. Only commutativity and associativity of `+` are used, so the law holds in every
  commutative additive monoid, the extended reals (with their two infinities) included. It is what joins a
  contraction accumulated in `n` blocks of `b` places with the same contraction taken whole.
-/
import Mathlib.Algebra.BigOperators.Fin

namespace Cert.BlockSum

open Finset

/-- `∑_{s < n} ∑_{k < b} f (b·s + k) = ∑_{K < n·b} f K`: by induction on the number of blocks, the last block split off
    the end of the range. -/
theorem sum_range_blocks {M : Type*} [AddCommMonoid M] (b : ℕ) (f : ℕ → M) :
    ∀ n : ℕ, ∑ s ∈ range n, ∑ k ∈ range b, f (b * s + k) = ∑ K ∈ range (n * b), f K
  | 0 => by simp
  | n + 1 => by
    rw [sum_range_succ, sum_range_blocks b f n, Nat.succ_mul, sum_range_add, Nat.mul_comm b n]

/-- A sum over `Fin n` of a function of the index's value is the sum over the first `n` naturals. -/
theorem sum_fin_eq_range {M : Type*} [AddCommMonoid M] (n : ℕ) (f : ℕ → M) :
    ∑ k : Fin n, f k.val = ∑ k ∈ range n, f k :=
  Fin.sum_univ_eq_sum_range f n

end Cert.BlockSum
-- ==== Proof.TiledDense.lean ====
/-
  The one law that joins the two programs, with no program in sight.

  Fix an output entry in tile r = 4·(row tile) + (column tile), at place (p, q) inside the tile. K-step s of that tile
  contributes the block term  ∑_{l < 256} x(2048·(r/4) + p, 256·s + l) · W(256·s + l, 1024·(r%4) + q).  Adding the 16
  block terms of the tile gives the whole contraction  ∑_{k < 4096} x(row, k) · W(k, column):  the 4096 shared places
  are taken in 16 blocks of 256. Only commutativity and associativity of addition on the extended reals are used, so
  the law holds at the infinities too and no finiteness of the inputs is needed.
-/
import Idealize.ShloMosaic.PureOps.Ideal
import Idealize.ShloMosaic.Lib.ValueIdx
import proofs.«163435_j24378234372712_2_alg».proof.Proof.LibBlockSum

noncomputable section

open scoped BigOperators

namespace Cert.TiledDense

open Idealize.ShloMosaic Idealize.ShloMosaic.ValueIdx Finset

/-- A natural number as a place along an axis of 4096 (places past the axis wrap; every place used is inside). -/
abbrev at4096 (n : ℕ) : Fin 4096 := ⟨n % 4096, Nat.mod_lt _ (by decide)⟩

theorem at4096_val (k : Fin 4096) : at4096 k.val = k := Fin.ext (Nat.mod_eq_of_lt k.isLt)

/-- THE BLOCK TERM of grid point `n` at place (p, q) of its tile: the point's x block times its W block there. -/
def blockTerm (X W : FVec Ideal ⟨2, ![4096, 4096]⟩ .f32) (n : ℕ) (p : Fin 2048) (q : Fin 1024) : EReal :=
  ∑ l : Fin 256,
    X (ix2 (at4096 (2048 * (n / 64) + p.val)) (at4096 (256 * (n % 16) + l.val)))
      * W (ix2 (at4096 (256 * (n % 16) + l.val)) (at4096 (1024 * (n / 16 % 4) + q.val)))

/-- The product met at shared place `K` by the entry of tile `r` at place (p, q). -/
def placeTerm (X W : FVec Ideal ⟨2, ![4096, 4096]⟩ .f32) (r : ℕ) (p : Fin 2048) (q : Fin 1024) (K : ℕ) : EReal :=
  X (ix2 (at4096 (2048 * (r / 4) + p.val)) (at4096 K)) * W (ix2 (at4096 K) (at4096 (1024 * (r % 4) + q.val)))

/-- K-step `s` of tile `r` contributes the 256 shared places 256·s … 256·s + 255. -/
theorem blockTerm_eq (X W : FVec Ideal ⟨2, ![4096, 4096]⟩ .f32) (r s : ℕ) (hs : s < 16) (p : Fin 2048) (q : Fin 1024) :
    blockTerm X W (16 * r + s) p q = ∑ l ∈ range 256, placeTerm X W r p q (256 * s + l) := by
  unfold blockTerm
  rw [show (16 * r + s) / 64 = r / 4 by omega, show (16 * r + s) % 16 = s by omega,
    show (16 * r + s) / 16 % 4 = r % 4 by omega]
  exact Cert.BlockSum.sum_fin_eq_range 256 (fun l : ℕ => placeTerm X W r p q (256 * s + l))

/-- THE LAW: the 16 block terms of tile `r` add up to the whole contraction over the 4096 shared places. -/
theorem blockTerms_sum (X W : FVec Ideal ⟨2, ![4096, 4096]⟩ .f32) (r : ℕ) (p : Fin 2048) (q : Fin 1024) :
    ∑ s ∈ range 16, blockTerm X W (16 * r + s) p q
      = ∑ k : Fin 4096, X (ix2 (at4096 (2048 * (r / 4) + p.val)) k) * W (ix2 k (at4096 (1024 * (r % 4) + q.val))) := by
  rw [sum_congr rfl (fun s hs => blockTerm_eq X W r s (mem_range.mp hs) p q),
    Cert.BlockSum.sum_range_blocks 256 (placeTerm X W r p q) 16,
    ← Cert.BlockSum.sum_fin_eq_range 4096 (placeTerm X W r p q)]
  refine sum_congr rfl fun k _ => ?_
  unfold placeTerm
  rw [at4096_val]

end Cert.TiledDense

end
-- ==== Proof.Blocks.lean ====
/-
  The blocks the grid hands to the body, read entry by entry from the argument arrays.

  The grid has 2 × 4 × 16 points; point t stands for the output tile (t / 64, t / 16 % 4) and the K-step t % 16. At
  that point the x block is rows 2048·(t/64) … and columns 256·(t%16) … of x, the W block is rows 256·(t%16) … and
  columns 1024·(t/16%4) … of W, and the bias block is columns 1024·(t/16%4) … of the bias laid out as one row.
-/
import proofs.«163435_j24378234372712_2_alg».proof.Proof.Gen.KernelIdeal.Frame
import Idealize.ShloMosaic.Lib.ValueIdx
import Idealize.ShloMosaic.Lib.Pipeline.Value
import Idealize.ShloMosaic.Lib.StableHlo.Run
import proofs.«163435_j24378234372712_2_alg».proof.Proof.TiledDense

noncomputable section

namespace Cert.KernelIdeal.Blocks

open Cert.KernelIdeal Cert.KernelIdeal.Gen Idealize.ShloMosaic Idealize.ShloMosaic.TcCoe Idealize.ShloMosaic.ValueIdx
  Idealize.SL.Sem Idealize.ShloMosaic.StableHlo Cert.TiledDense

variable {F : FTy → Type} [FloatOps F]
variable (m : (ℓ : Loc nD τ sig) → Buf (Elt F) ℓ)

/-- Which block of each input the body sees at point `t`: decided once over the 128 grid points. -/
theorem block_indices : ∀ t : Fin cfg0.N,
    win0_0.index t (0 : Fin 2) = t.val / 64 ∧ win0_0.index t (1 : Fin 2) = t.val % 16
    ∧ win0_1.index t (0 : Fin 2) = t.val % 16 ∧ win0_1.index t (1 : Fin 2) = t.val / 16 % 4
    ∧ win0_2.index t (0 : Fin 2) = 0 ∧ win0_2.index t (1 : Fin 2) = t.val / 16 % 4 :=
  (by decide +kernel : ∀ t : Fin grid0.N, _)

/-- The x block at point `t`, entry (p, l): x at row 2048·(t/64) + p, column 256·(t%16) + l. -/
theorem xblock_apply (c : Dev nD) (t : Fin cfg0.N) (p : Fin 2048) (l : Fin 256) :
    (iblk m c 0 t : Vec F S2048x256 .f32) (ix2 p l)
      = m ((c : Thread nD τ).loc main_arg0) (ix2 (at4096 (2048 * (t.val / 64) + p.val)) (at4096 (256 * (t.val % 16) + l.val))) := by
  obtain ⟨h0, h1, -⟩ := block_indices t
  have ht : t.val < 128 := lt_of_lt_of_eq t.isLt N_0
  unfold iblk
  rw [View.read_apply]
  show V m c main_arg0 _ = _
  rw [V_main_arg0]
  congr 1
  funext a
  apply Fin.ext
  match a with
  | ⟨0, _⟩ =>
    show win0_0.index t 0 * 2048 + 1 * p.val = (2048 * (t.val / 64) + p.val) % 4096
    rw [h0]; omega
  | ⟨1, _⟩ =>
    show win0_0.index t 1 * 256 + 1 * l.val = (256 * (t.val % 16) + l.val) % 4096
    rw [h1]; omega

/-- The W block at point `t`, entry (l, q): W at row 256·(t%16) + l, column 1024·(t/16%4) + q. -/
theorem wblock_apply (c : Dev nD) (t : Fin cfg0.N) (l : Fin 256) (q : Fin 1024) :
    (iblk m c 1 t : Vec F S256x1024 .f32) (ix2 l q)
      = m ((c : Thread nD τ).loc main_arg1) (ix2 (at4096 (256 * (t.val % 16) + l.val)) (at4096 (1024 * (t.val / 16 % 4) + q.val))) := by
  obtain ⟨-, -, h0, h1, -⟩ := block_indices t
  have ht : t.val < 128 := lt_of_lt_of_eq t.isLt N_0
  unfold iblk
  rw [View.read_apply]
  show V m c main_arg1 _ = _
  rw [V_main_arg1]
  congr 1
  funext a
  apply Fin.ext
  match a with
  | ⟨0, _⟩ =>
    show win0_1.index t 0 * 256 + 1 * l.val = (256 * (t.val % 16) + l.val) % 4096
    rw [h0]; omega
  | ⟨1, _⟩ =>
    show win0_1.index t 1 * 1024 + 1 * q.val = (1024 * (t.val / 16 % 4) + q.val) % 4096
    rw [h1]; omega

/-- The bias as the body's third window finds it: the 4096 numbers laid out as one row. -/
theorem bias_row (c : Dev nD) :
    V m c main_v0 = shapeCast S1x4096 (m ((c : Thread nD τ).loc main_arg2)) shapeCasts_S4096_S1x4096 := by
  dsimp only [V, hostOps0]
  after_results
  rfl

/-- The bias block at point `t`, entry (0, q): the bias at 1024·(t/16%4) + q. -/
theorem bblock_apply (c : Dev nD) (t : Fin cfg0.N) (q : Fin 1024) :
    (iblk m c 2 t : Vec F S1x1024 .f32) (ix2 (0 : Fin 1) q)
      = m ((c : Thread nD τ).loc main_arg2) (ix1 (at4096 (1024 * (t.val / 16 % 4) + q.val))) := by
  obtain ⟨-, -, -, -, h0, h1⟩ := block_indices t
  have ht : t.val < 128 := lt_of_lt_of_eq t.isLt N_0
  unfold iblk
  rw [View.read_apply]
  show V m c main_v0 _ = _
  rw [bias_row]
  refine shapeCast_apply _ shapeCasts_S4096_S1x4096 _ _ ?_
  rw [Shape.rowMajor_val_one, Shape.rowMajor_val_two]
  show (1024 * (t.val / 16 % 4) + q.val) % 4096 = (win0_2.index t 0 * 1 + 1 * (0 : Fin 1).val) * 4096 + (win0_2.index t 1 * 1024 + 1 * q.val)
  rw [h0, h1]
  simp only [Fin.val_zero]
  omega

end Cert.KernelIdeal.Blocks

end
-- ==== Proof.Fold.lean ====
/-
  What the output tile holds after its 16 K-steps, entry by entry.

  The tile is zeroed and given the first block term at K-step 0, gains one block term at each of the K-steps 1 … 14, and
  at K-step 15 gains the last block term and is replaced by tanh(tile + bias). So its entry (p, q) ends as
  tanh(∑_{s < 16} block term of K-step s + bias at the tile's column q).
-/
import proofs.«163435_j24378234372712_2_alg».proof.Proof.Gen.KernelIdeal.Value
import proofs.«163435_j24378234372712_2_alg».proof.Proof.KernelBody
import proofs.«163435_j24378234372712_2_alg».proof.Proof.Blocks
import proofs.«163435_j24378234372712_2_alg».proof.Proof.TiledDense

noncomputable section

open scoped BigOperators

namespace Cert.KernelIdeal.Fold

open Cert.KernelIdeal Cert.KernelIdeal.Gen Cert.KernelIdeal.Value Cert.KernelIdeal.Body Cert.KernelIdeal.Blocks Cert.TiledDense
  Idealize.ShloMosaic Idealize.ShloMosaic.TcCoe Idealize.ShloMosaic.ValueIdx Idealize.SL.Sem

variable (m : (ℓ : Loc nD τ sig) → Buf (Elt Ideal) ℓ)

/-- The block term of grid point `n` over the argument arrays x and W as launched. -/
abbrev term (c : Dev nD) (n : ℕ) (y : S2048x1024.Idx) : EReal :=
  blockTerm (m ((c : Thread nD τ).loc main_arg0)) (m ((c : Thread nD τ).loc main_arg1)) n (y 0) (y 1)

/-- One K-step's gain at entry (p, q) is the point's block term: the two blocks read from x and W. -/
theorem gain_apply (c : Dev nD) (n : ℕ) (h : n < cfg0.N) (acc : Vec Ideal S2048x1024 .f32) (p : Fin 2048) (q : Fin 1024) :
    k0_pay2 (iblk m c 0 ⟨n, h⟩) (iblk m c 1 ⟨n, h⟩) acc (ix2 p q) = acc (ix2 p q) + term m c n (ix2 p q) := by
  refine (accumulate_apply (iblk m c 0 ⟨n, h⟩) (iblk m c 1 ⟨n, h⟩) acc p q).trans ?_
  congr 1
  show _ = blockTerm _ _ n p q
  unfold blockTerm
  refine Finset.sum_congr rfl fun l _ => ?_
  rw [xblock_apply m c ⟨n, h⟩ p l, wblock_apply m c ⟨n, h⟩ l q]

/-- K-step 0: zero plus the first block term. -/
theorem reset_apply (c : Dev nD) (n : ℕ) (h : n < cfg0.N) (y : S2048x1024.Idx) :
    reset3 m c n h y = (fun _ : S2048x1024.Idx => (0 : EReal)) y + term m c n y := by
  obtain ⟨p, q, rfl⟩ : ∃ (p : Fin 2048) (q : Fin 1024), y = ix2 p q := ⟨y 0, y 1, eq_ix2 y⟩
  unfold reset3
  refine (gain_apply m c n h (k0_pay1 (F := Ideal)) p q).trans ?_
  rw [zeroed_apply]

/-- K-steps 1 … 14: the tile gains the point's block term. -/
theorem step_apply (c : Dev nD) (n : ℕ) (h : n < cfg0.N) (acc : Vec Ideal S2048x1024 .f32) (y : S2048x1024.Idx)
    (h0 : ¬n % 16 = 0) (h1 : ¬n % 16 = 15) :
    step3 m c n h acc y = acc y + term m c n y := by
  obtain ⟨p, q, rfl⟩ : ∃ (p : Fin 2048) (q : Fin 1024), y = ix2 p q := ⟨y 0, y 1, eq_ix2 y⟩
  unfold step3
  rw [if_pos ⟨h0, h1⟩]
  exact gain_apply m c n h acc p q

/-- K-step 15: the tile gains the point's block term and is then closed by tanh(· + bias). -/
theorem last_apply (c : Dev nD) (n : ℕ) (h : n < cfg0.N) (acc : Vec Ideal S2048x1024 .f32) (y : S2048x1024.Idx)
    (h0 : ¬n % 16 = 0) (h1 : n % 16 = 15) :
    step3 m c n h acc y = k0_pay3 (k0_pay2 (iblk m c 0 ⟨n, h⟩) (iblk m c 1 ⟨n, h⟩) acc) (iblk m c 2 ⟨n, h⟩) y := by
  unfold step3
  rw [if_neg (fun hh => hh.2 h1), if_pos ⟨h0, h1⟩]

/-- After K-step 14 the tile's entry is the sum of the first 15 block terms. -/
theorem partial_apply (c : Dev nD) (r : ℕ) (h : 16 * r + 14 < cfg0.N) (y : S2048x1024.Idx) :
    Pipeline.accAt (reset3 m c) (step3 m c) (16 * r) 14 h y
      = 0 + ∑ s ∈ Finset.range (14 + 1), term m c (16 * r + s) y :=
  Pipeline.accAt_add_apply (ι := S2048x1024.Idx) (β := EReal) (reset3 m c) (step3 m c) (fun _ => 0) (fun n y => term m c n y) (16 * r) 14
    (fun h y => reset_apply m c _ h y)
    (fun n h acc y hb he => step_apply m c n h acc y (by omega) (by omega))
    14 le_rfl h y

/-- AFTER THE LAST K-STEP: tanh of the 16 block terms' sum plus the bias at the tile's column. -/
theorem tile_apply (c : Dev nD) (r : ℕ) (h : 16 * r + 15 < cfg0.N) (p : Fin 2048) (q : Fin 1024) :
    Pipeline.accAt (reset3 m c) (step3 m c) (16 * r) 15 h (ix2 p q)
      = Ideal.tanh ((∑ s ∈ Finset.range 16, term m c (16 * r + s) (ix2 p q))
          + m ((c : Thread nD τ).loc main_arg2) (ix1 (at4096 (1024 * (r % 4) + q.val)))) := by
  show step3 m c (16 * r + 15) h (Pipeline.accAt (reset3 m c) (step3 m c) (16 * r) 14 (Nat.lt_of_succ_lt h)) (ix2 p q) = _
  refine (last_apply m c (16 * r + 15) h _ (ix2 p q) (by omega) (by omega)).trans ?_
  refine (finish_apply _ _ p q).trans ?_
  rw [bblock_apply m c ⟨16 * r + 15, h⟩ q]
  show Ideal.tanh (_ + m ((c : Thread nD τ).loc main_arg2) (ix1 (at4096 (1024 * ((16 * r + 15) / 16 % 4) + q.val)))) = _
  rw [show (16 * r + 15) / 16 % 4 = r % 4 by omega]
  congr 2
  refine (gain_apply m c (16 * r + 15) h _ p q).trans ?_
  rw [partial_apply, zero_add, Finset.sum_range_succ _ 15]

end Cert.KernelIdeal.Fold

end
-- ==== Proof.RefSide.lean ====
/-
  The reference, entry by entry on the extended reals: tanh(∑_{k < 4096} x(i, k) · W(k, j) + b(j)).
  The einsum is the sum over the 4096 shared places; the bias is repeated down the rows; the host's tanh and the
  kernel's are one function on the extended reals.
-/
import proofs.«163435_j24378234372712_2_alg».proof.Proof.Gen.ReferenceIdeal.Read
import Idealize.ShloMosaic.Lib.ValueIdx

noncomputable section

open scoped BigOperators

namespace Cert.ReferenceIdeal.RefSide

open Cert.ReferenceIdeal Cert.ReferenceIdeal.Read Idealize.ShloMosaic Idealize.ShloMosaic.ValueIdx

/-- The reference's result at entry `i` = (row, column). -/
theorem result_apply (X W : (⟨S4096x4096, .f32⟩ : BufTy).Contents (Elt Ideal)) (B : (⟨S4096, .f32⟩ : BufTy).Contents (Elt Ideal))
    (i : S4096x4096.Idx) :
    val_main_v4 (F := Ideal) X W B i
      = Ideal.tanh ((∑ k : Fin 4096, X (ix2 (i 0) k) * W (ix2 k (i 1))) + B (ix1 (i 1))) := by
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 k (i 1) := fun k => funext fun a => Fin.ext (by
    match a with
    | ⟨0, _⟩ => rfl
    | ⟨1, _⟩ => rfl)
  have eb : idx_main_v1 (idx_main_v2 i) = ix1 (i 1) := funext fun a => Fin.ext (by
    match a with
    | ⟨0, _⟩ => rfl)
  rw [val_main_v4_apply, val_main_v3_apply, val_main_v0_apply, val_main_v2_apply, val_main_v1_apply]
  simp only [el, er, eb]
  rfl

end Cert.ReferenceIdeal.RefSide

end
-- ==== Proof.Bridge.lean ====
/-
  The two programs compute one function of the arguments.

  Entry i = (row, column) of the result lies in the output tile (row / 2048, column / 1024), at place
  (row % 2048, column % 1024) inside it. The kernel leaves there tanh of the tile's 16 block terms plus the bias at the
  column; the 16 block terms add up to the whole contraction over the 4096 shared places; and that, plus the bias, under
  tanh, is the reference's entry.
-/
import proofs.«163435_j24378234372712_2_alg».proof.Proof.Fold
import proofs.«163435_j24378234372712_2_alg».proof.Proof.RefSide

noncomputable section

open scoped BigOperators

namespace Cert.Bridge

open Cert.KernelIdeal Cert.KernelIdeal.Gen Cert.KernelIdeal.Value Cert.TiledDense
  Idealize.ShloMosaic Idealize.ShloMosaic.TcCoe Idealize.ShloMosaic.ValueIdx Idealize.SL.Sem

variable (m : (ℓ : Loc nD τ sig) → Buf (Elt Ideal) ℓ)

/-- The argument arrays as launched, as matrices of extended reals: x, W and the bias b. -/
abbrev xArr (c : Dev nD) : FVec Ideal S4096x4096 .f32 := m ((c : Thread nD τ).loc main_arg0)
abbrev wArr (c : Dev nD) : FVec Ideal S4096x4096 .f32 := m ((c : Thread nD τ).loc main_arg1)
abbrev bArr (c : Dev nD) : FVec Ideal S4096 .f32 := m ((c : Thread nD τ).loc main_arg2)

/-- The tile's entry (p, q) after its last K-step, named by the entry's own row and column in the whole result. -/
theorem tile_entry (c : Dev nD) (r : ℕ) (h : 16 * r + 15 < cfg0.N) (p : Fin 2048) (q : Fin 1024) (i0 i1 : Fin 4096)
    (h0 : i0.val = 2048 * (r / 4) + p.val) (h1 : i1.val = 1024 * (r % 4) + q.val) :
    Pipeline.accAt (reset3 m c) (step3 m c) (16 * r) 15 h (ix2 p q)
      = Ideal.tanh ((∑ k : Fin 4096, xArr m c (ix2 i0 k) * wArr m c (ix2 k i1)) + bArr m c (ix1 i1)) := by
  have e0 : at4096 (2048 * (r / 4) + p.val) = i0 := Fin.ext (by
    show (2048 * (r / 4) + p.val) % 4096 = i0.val
    rw [← h0]; exact Nat.mod_eq_of_lt i0.isLt)
  have e1 : at4096 (1024 * (r % 4) + q.val) = i1 := Fin.ext (by
    show (1024 * (r % 4) + q.val) % 4096 = i1.val
    rw [← h1]; exact Nat.mod_eq_of_lt i1.isLt)
  rw [Cert.KernelIdeal.Fold.tile_apply, blockTerms_sum]
  show Ideal.tanh ((∑ k : Fin 4096, xArr m c (ix2 (at4096 (2048 * (r / 4) + p.val)) k)
      * wArr m c (ix2 k (at4096 (1024 * (r % 4) + q.val))))
      + bArr m c (ix1 (at4096 (1024 * (r % 4) + q.val)))) = _
  rw [e0, e1]

/-- THE BRIDGE: the reference's result, over the kernel's arguments, is the array the kernel leaves. -/
theorem reference_eq_kernel (c : Dev nD) :
    Cert.ReferenceIdeal.Read.val_main_v4 (F := Ideal) (m ((c : Thread nD τ).loc main_arg0)) (m ((c : Thread nD τ).loc main_arg1))
        (m ((c : Thread nD τ).loc main_arg2))
      = G3 m c := by
  funext i
  have hi0 : (i 0).val < 4096 := (i 0).isLt
  have hi1 : (i 1).val < 4096 := (i 1).isLt
  have hN : cfg0.N = 128 := N_0
  have hr : run3Of i = 4 * ((i 0).val / 2048) + (i 1).val / 1024 := by
    show 4 * ((i 0).val / 2048 - 0) + 1 * ((i 1).val / 1024 - 0) = _
    omega
  have hh : 16 * run3Of i + 15 < cfg0.N := by rw [hr, hN]; omega
  have hl : loc3Of i = ix2 (⟨(i 0).val % 2048, Nat.mod_lt _ (by decide)⟩ : Fin 2048) (⟨(i 1).val % 1024, Nat.mod_lt _ (by decide)⟩ : Fin 1024) :=
    funext fun a => by
      match a with
      | ⟨0, _⟩ => rfl
      | ⟨1, _⟩ => rfl
  rw [Cert.ReferenceIdeal.RefSide.result_apply]
  unfold G3
  rw [dif_pos hh, hl]
  refine (tile_entry m c (run3Of i) hh _ _ (i 0) (i 1) ?_ ?_).symm
  · show (i 0).val = 2048 * (run3Of i / 4) + (i 0).val % 2048
    rw [hr]; omega
  · show (i 1).val = 1024 * (run3Of i % 4) + (i 1).val % 1024
    rw [hr]; omega

end Cert.Bridge

end
-- ==== Proof.lean ====
/-
  A dense layer with bias and tanh, tiled: out = tanh(x · W + b) over 4096 × 4096 matrices.

  The kernel walks a 2 × 4 × 16 grid: output tiles of 2048 × 1024, each built over 16 K-steps of 256 shared places. A tile
  is zeroed at its first K-step, gains the product of the step's x block and W block at every K-step (the operands'
  narrowing to bf16 is the identity on exact values), and at its last K-step becomes tanh(tile + bias row). The reference
  is tanh(einsum(x, W) + b).

  On the extended reals both are tanh(∑_{k < 4096} x(i, k) · W(k, j) + b(j)) at every entry (i, j): the kernel's 16 block
  terms of 256 places each are the reference's one sum of 4096 places regrouped, and regrouping a sum needs only that
  addition is commutative and associative, which holds with the infinities too. So the inputs' finiteness is never
  used. No rewrite of the kernel was recorded on the way to its exact-value form, so that conjunct is trivial.
-/
import proofs.«163435_j24378234372712_2_alg».proof.Defs
import proofs.«163435_j24378234372712_2_alg».proof.Proof.Gen.Kernel.Frame
import proofs.«163435_j24378234372712_2_alg».proof.Proof.Gen.KernelIdeal.Value
import proofs.«163435_j24378234372712_2_alg».proof.Proof.Gen.Pre_finite_inputs
import proofs.«163435_j24378234372712_2_alg».proof.Proof.Gen.ReferenceIdeal.Run
import proofs.«163435_j24378234372712_2_alg».proof.Proof.Bridge
import Idealize.ShloMosaic.Adequacy
import Idealize.ShloMosaic.Init

noncomputable section

namespace Cert.Proof

open Idealize.ShloMosaic Idealize.SL.Sem

/-- The exact-value kernel terminates without a fault and leaves its arguments as they were: its run, with the result
    dropped. -/
theorem frame_KernelIdeal : frame_KernelIdeal := fun m ρ _ =>
  (θ_run Cert.KernelIdeal.defs _ _).mono (fun _ h c => (h c).2) (Cert.KernelIdeal.Value.run (F := Ideal) m ρ)

/-- Likewise the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, W and b, the kernel's result array and the reference's are equal entry by entry:
    each is tanh of the whole contraction plus the bias. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v4_eq _ _ _).trans (Cert.Bridge.reference_eq_kernel m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
